-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S4096x1 : Shape := ⟨2, ![4096, 1]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x32 .f32) (main_arg8 : FVec F S1 .f32) (main_v33 : IVec S_ 1) : IVec S_ 1 :=
  let main_v34 : FVec F S1x32 .f32 := Host.absf main_arg7
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256 .f32) (main_arg5 : FVec F S32x512 .f32) (main_arg6 : FVec F S32 .f32) (main_arg7 : FVec F S1x32 .f32) (main_arg8 : FVec F S1 .f32) (main_v13 : IVec S_ 1) (main_v16 : IVec S256x40960 1) : IVec S_ 1 :=
  let main_c_5 : IVec S_ 1 := constantI S_ 1 1#1
  let main_v17 : IVec S_ 1 := (fun x v => Host.reduce IntOp.andi x v reducesTo_S256x40960_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S32x512 .f32 := Host.absf main_arg5
  let main_cst_8 : FVec F S_ .f32 := constant S_ .f32 0x7F800000#32
  let main_v25 : FVec F S32x512 .f32 := broadcastInDim S32x512 ![] bcast_S_S32x512 main_cst_8
  let main_v26 : IVec S32x512 1 := cmpf .olt main_v24 main_v25
  let main_c_9 : IVec S_ 1 := constantI S_ 1 1#1
  let main_v27 : IVec S_ 1 := (fun x v => Host.reduce IntOp.andi x v reducesTo_S32x512_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S4096x40960 .f32) (main_arg1 : FVec F S4096x40960 .f32) (main_arg2 : FVec F S4096x1 .f32) (main_arg3 : FVec F S256x40960 .f32) (main_arg4 : FVec F S256 .f32) (main_arg5 : FVec F S32x512 .f32) (main_arg6 : FVec F S32 .f32) (main_arg7 : FVec F S1x32 .f32) (main_arg8 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S256x40960 .f32 := Host.absf main_arg3
  let main_cst_4 : FVec F S_ .f32 := constant S_ .f32 0x7F800000#32
  let main_v15 : FVec F S256x40960 .f32 := broadcastInDim S256x40960 ![] bcast_S_S256x40960 main_cst_4
  let main_v16 : IVec S256x40960 1 := cmpf .olt main_v14 main_v15
  fn_part1 (F := F) main_arg4 main_arg5 main_arg6 main_arg7 main_arg8 main_v13 main_v16
-- ==== Kernel.lean ====
abbrev S4096x40960 : Shape := ⟨2, ![4096, 40960]⟩
abbrev S4096x1 : Shape := ⟨2, ![4096, 1]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S1x32 : Shape := ⟨2, ![1, 32]⟩
abbrev S1 : Shape := ⟨1, ![1]⟩
abbrev S1x256 : Shape := ⟨2, ![1, 256]⟩
abbrev S1x1 : Shape := ⟨2, ![1, 1]⟩
abbrev S512x2048 : Shape := ⟨2, ![512, 2048]⟩
abbrev S256x2048 : Shape := ⟨2, ![256, 2048]⟩
abbrev S512x1 : Shape := ⟨2, ![512, 1]⟩
abbrev S512x256 : Shape := ⟨2, ![512, 256]⟩
abbrev S512x512 : Shape := ⟨2, ![512, 512]⟩
abbrev S512x32 : Shape := ⟨2, ![512, 32]⟩
abbrev S512 : Shape := ⟨1, ![512]⟩

abbrev nBuf : Space → Nat
  | .hbm => 13
  | .vmem => 17
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S256x40960, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S1x256, .f32⟩
  | .hbm, ⟨10, _⟩ => ⟨S1x32, .f32⟩
  | .hbm, ⟨11, _⟩ => ⟨S1x1, .f32⟩
  | .hbm, ⟨12, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S256x2048, .f32⟩
  | .local _ .vmem, ⟨5, _⟩ => ⟨S256x2048, .f32⟩
  | .local _ .vmem, ⟨6, _⟩ => ⟨S1x256, .f32⟩
  | .local _ .vmem, ⟨7, _⟩ => ⟨S32x512, .f32⟩
  | .local _ .vmem, ⟨8, _⟩ => ⟨S1x32, .f32⟩
  | .local _ .vmem, ⟨9, _⟩ => ⟨S1x32, .f32⟩
  | .local _ .vmem, ⟨10, _⟩ => ⟨S1x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x256, .f32⟩
  | .local _ .vmem, ⟨16, _⟩ => ⟨S512x256, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 20], ![false, false]⟩

def k0_cond2 (i : grid0.Coords) : BitVec 1 :=
  let arg1 : BitVec 32 := BitVec.ofNat 32 (i 1).val
  let c19_i32 : BitVec 32 := 19#32
  let v21 : BitVec 1 := Scalar.cmpi .eq arg1 c19_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S256_S1x256 : S256.ShapeCasts S1x256
  shapeCasts_S32_S1x32 : S32.ShapeCasts S1x32
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x1_S512x1_0_0 : ∀ a, (![0, 0] : Fin 2 → Nat) a + S512x1.size a ≤ S512x1.size a
  h_S512x1 : 0 < S512x1.numel
  concatenates_S512x256_S512x256_S512x512_d1 : Shape.Concatenates [S512x256, S512x256] S512x512 1
  broadcasts_S512x1_S512x512 : S512x1.Broadcasts S512x512
  inb_S32x512_S32x512_0_0 : ∀ a, (![0, 0] : Fin 2 → Nat) a + S32x512.size a ≤ S32x512.size a
  h_S32x512 : 0 < S32x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  reduces_S512x32_S512 : S512x32.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  dot_S512x2048_S256x2048_S512x256_1_1_0_0_n_n_wf : DotDims.WF S512x2048 S256x2048 S512x256 [1] [1] [0] [0] [] []
  dot_S512x512_S32x512_S512x32_1_1_0_0_n_n_wf : DotDims.WF S512x512 S32x512 S512x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x40960.size a
  hwx0_0 : ∀ i : grid0.Coords, EltTy.bits .f32 = 32 ∨ (Rect.block (s := S4096x40960) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x40960.size a
  hwx0_1 : ∀ i : grid0.Coords, EltTy.bits .f32 = 32 ∨ (Rect.block (s := S4096x40960) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x40960.size a
  hwx0_2 : ∀ i : grid0.Coords, EltTy.bits .f32 = 32 ∨ (Rect.block (s := S256x40960) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .f32 = 32 ∨ (Rect.block (s := S4096x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S4096x1.size a
  hwx0_9 : ∀ i : grid0.Coords, EltTy.bits .f32 = 32 ∨ (Rect.block (s := S4096x1) S512x1.size (cc0_transform_9 i) (hinb0_9 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x512_S32x512_S512x32_1_1_0_0_n_n : DotDims S512x512 S32x512 S512x32 where
  lhsContracting := [1]
  rhsContracting := [1]
  lhsNonContracting := [0]
  rhsNonContracting := [0]
  lhsBatch := []
  rhsBatch := []
  wf := dot_S512x512_S32x512_S512x32_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S512x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x40960 : Shape := ⟨2, ![4096, 40960]⟩
abbrev S4096x1 : Shape := ⟨2, ![4096, 1]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S1x32 : Shape := ⟨2, ![1, 32]⟩
abbrev S1 : Shape := ⟨1, ![1]⟩
abbrev S40960x256 : Shape := ⟨2, ![40960, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S256x40960, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S40960x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S40960x256, .f32⟩
  | .hbm, ⟨15, _⟩ => ⟨S4096x256, .f32⟩
  | .hbm, ⟨16, _⟩ => ⟨S1x256, .f32⟩
  | .hbm, ⟨17, _⟩ => ⟨S4096x256, .f32⟩
  | .hbm, ⟨18, _⟩ => ⟨S4096x256, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S512x32, .f32⟩
  | .hbm, ⟨38, _⟩ => ⟨S4096x32, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S32x1, .f32⟩
  | .hbm, ⟨51, _⟩ => ⟨S4096x1, .f32⟩
  | .hbm, ⟨52, _⟩ => ⟨S1x1, .f32⟩
  | .hbm, ⟨53, _⟩ => ⟨S4096x1, .f32⟩
  | .hbm, ⟨54, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x256_S4096x256_1_0_0_1_n_n_wf : DotDims.WF S4096x40960 S40960x256 S4096x256 [1] [0] [0] [1] [] []
  dot_S4096x512_S512x32_S4096x32_1_0_0_1_n_n_wf : DotDims.WF S4096x512 S512x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Pieces.lean ====
/-
  What one grid point of the kernel leaves behind, as values.

  The kernel keeps two 512 × 256 accumulators across the twenty feature tiles of one batch tile.  At a tile it adds to each
  accumulator the product of a 512 × 2048 block of features with the 256 × 2048 block of feature weights (contracting the
  2048 features); at the first tile of a batch tile it first overwrites both accumulators with zeros; at the last tile it goes
  on, from the accumulators it has just updated, to the small dense layers and stores the 512 × 1 output block.

  Each lemma below says what a point of one kind leaves in one buffer, as the body's own arithmetic (the generated payloads)
  applied to the blocks the point was given and to what the accumulators held before: the accumulators' update at a first,
  middle and last tile, and the output block at a last tile.  Nothing here depends on how floats are interpreted.
-/
import proofs.«179666_j9148280341053_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body is at offset (0, 0) of its buffer. -/
theorem hz : (![0, 0] : Fin 2 → Nat) = fun _ => 0 := funext fun a => by fin_cases a <;> rfl

/-! ## First tile of a batch tile: the accumulators are zeroed, then updated -/

theorem scratchW_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x256 .f32) (harg12 : arg12.IsWhole) (arg13 : Memref sig .tc .vmem S512x256 .f32) (harg13 : arg13.IsWhole) (hc0 : cond0_0 i) (hc1 : ¬cond0_1 i)
    (x0 : Vec F S512x2048 .f32) (x1 : Vec F S512x2048 .f32) (x2 : Vec F S256x2048 .f32) (x3 : Vec F S1x256 .f32) (x4 : Vec F S32x512 .f32) (x5 : Vec F S1x32 .f32) (x6 : Vec F S1x32 .f32) (x7 : Vec F S1x1 .f32) (x8 : Vec F S512x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay4 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz, View.ld_unit_zero (S := S256x2048) hz, View.ld_unit_zero (S := S512x256) hz, View.ld_unit_zero (S := S1x256) hz, View.ld_unit_zero (S := S512x1) hz, View.ld_unit_zero (S := S32x512) hz, View.ld_unit_zero (S := S1x32) hz, View.ld_unit_zero (S := S1x1) hz]

theorem scratchB_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x256 .f32) (harg12 : arg12.IsWhole) (arg13 : Memref sig .tc .vmem S512x256 .f32) (harg13 : arg13.IsWhole) (hc0 : cond0_0 i) (hc1 : ¬cond0_1 i)
    (x0 : Vec F S512x2048 .f32) (x1 : Vec F S512x2048 .f32) (x2 : Vec F S256x2048 .f32) (x3 : Vec F S1x256 .f32) (x4 : Vec F S32x512 .f32) (x5 : Vec F S1x32 .f32) (x6 : Vec F S1x32 .f32) (x7 : Vec F S1x1 .f32) (x8 : Vec F S512x1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay5 x1 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz, View.ld_unit_zero (S := S256x2048) hz, View.ld_unit_zero (S := S512x256) hz, View.ld_unit_zero (S := S1x256) hz, View.ld_unit_zero (S := S512x1) hz, View.ld_unit_zero (S := S32x512) hz, View.ld_unit_zero (S := S1x32) hz, View.ld_unit_zero (S := S1x1) hz]

/-! ## A middle tile: the accumulators are updated from what the tile before left -/

theorem scratchW_mid (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : ¬cond0_1 i)
    (x0 : Vec F S512x2048 .f32) (x1 : Vec F S512x2048 .f32) (x2 : Vec F S256x2048 .f32) (x3 : Vec F S1x256 .f32) (x4 : Vec F S32x512 .f32) (x5 : Vec F S1x32 .f32) (x6 : Vec F S1x32 .f32) (x7 : Vec F S1x1 .f32) (x8 : Vec F S512x1 .f32) (xs0 : Vec F S512x256 .f32) (xs1 : Vec F S512x256 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz, View.ld_unit_zero (S := S256x2048) hz, View.ld_unit_zero (S := S512x256) hz, View.ld_unit_zero (S := S1x256) hz, View.ld_unit_zero (S := S512x1) hz, View.ld_unit_zero (S := S32x512) hz, View.ld_unit_zero (S := S1x32) hz, View.ld_unit_zero (S := S1x1) hz]

theorem scratchB_mid (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : ¬cond0_1 i)
    (x0 : Vec F S512x2048 .f32) (x1 : Vec F S512x2048 .f32) (x2 : Vec F S256x2048 .f32) (x3 : Vec F S1x256 .f32) (x4 : Vec F S32x512 .f32) (x5 : Vec F S1x32 .f32) (x6 : Vec F S1x32 .f32) (x7 : Vec F S1x1 .f32) (x8 : Vec F S512x1 .f32) (xs0 : Vec F S512x256 .f32) (xs1 : Vec F S512x256 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz, View.ld_unit_zero (S := S256x2048) hz, View.ld_unit_zero (S := S512x256) hz, View.ld_unit_zero (S := S1x256) hz, View.ld_unit_zero (S := S512x1) hz, View.ld_unit_zero (S := S32x512) hz, View.ld_unit_zero (S := S1x32) hz, View.ld_unit_zero (S := S1x1) hz]

/-! ## The last tile: the same update, and the output block computed from the updated accumulators -/

theorem scratchW_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : cond0_1 i)
    (x0 : Vec F S512x2048 .f32) (x1 : Vec F S512x2048 .f32) (x2 : Vec F S256x2048 .f32) (x3 : Vec F S1x256 .f32) (x4 : Vec F S32x512 .f32) (x5 : Vec F S1x32 .f32) (x6 : Vec F S1x32 .f32) (x7 : Vec F S1x1 .f32) (x8 : Vec F S512x1 .f32) (xs0 : Vec F S512x256 .f32) (xs1 : Vec F S512x256 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz, View.ld_unit_zero (S := S256x2048) hz, View.ld_unit_zero (S := S512x256) hz, View.ld_unit_zero (S := S1x256) hz, View.ld_unit_zero (S := S512x1) hz, View.ld_unit_zero (S := S32x512) hz, View.ld_unit_zero (S := S1x32) hz, View.ld_unit_zero (S := S1x1) hz]

theorem scratchB_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : cond0_1 i)
    (x0 : Vec F S512x2048 .f32) (x1 : Vec F S512x2048 .f32) (x2 : Vec F S256x2048 .f32) (x3 : Vec F S1x256 .f32) (x4 : Vec F S32x512 .f32) (x5 : Vec F S1x32 .f32) (x6 : Vec F S1x32 .f32) (x7 : Vec F S1x1 .f32) (x8 : Vec F S512x1 .f32) (xs0 : Vec F S512x256 .f32) (xs1 : Vec F S512x256 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz, View.ld_unit_zero (S := S256x2048) hz, View.ld_unit_zero (S := S512x256) hz, View.ld_unit_zero (S := S1x256) hz, View.ld_unit_zero (S := S512x1) hz, View.ld_unit_zero (S := S32x512) hz, View.ld_unit_zero (S := S1x32) hz, View.ld_unit_zero (S := S1x1) hz]

theorem out_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : cond0_1 i)
    (x0 : Vec F S512x2048 .f32) (x1 : Vec F S512x2048 .f32) (x2 : Vec F S256x2048 .f32) (x3 : Vec F S1x256 .f32) (x4 : Vec F S32x512 .f32) (x5 : Vec F S1x32 .f32) (x6 : Vec F S1x32 .f32) (x7 : Vec F S1x1 .f32) (x8 : Vec F S512x1 .f32) (xs0 : Vec F S512x256 .f32) (xs1 : Vec F S512x256 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay6 (k0_pay7 (k0_pay4 x0 x2 xs0) x3 (k0_pay5 x1 x2 xs1) x3 x8 x4 x5) (k0_pay8 x6) x7 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readCov_unit_zero (S := S512x256) _ hz, View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S512x2048) hz, View.ld_unit_zero (S := S256x2048) hz, View.ld_unit_zero (S := S512x256) hz, View.ld_unit_zero (S := S1x256) hz, View.ld_unit_zero (S := S512x1) hz, View.ld_unit_zero (S := S32x512) hz, View.ld_unit_zero (S := S1x32) hz, View.ld_unit_zero (S := S1x1) hz]

end Cert.KernelIdeal.Pieces

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.Spec.lean ====
/-
  One row of the network, as a function on the extended reals.

  The program evaluates, for every board position (a row `R` of the batch), two feature-transform rows

      w_j = (∑_k white[R,k] · ft_w[j,k]) + ft_b[j]        b_j = (∑_k black[R,k] · ft_w[j,k]) + ft_b[j]      (j < 256),

  joins them in the order the side to move `s = stm[R]` selects, as the convex-looking combination
  `s · (w ‖ b) + (1 − s) · (b ‖ w)` of the two concatenations (512 entries), clamps that to [0, 1], applies a dense layer
  512 → 32 with bias and clamps again, and finishes with a dense layer 32 → 1 with bias.  Everything after the two
  feature-transform rows is a function of those rows, of `s` and of the small weights alone: `rowOut`.  Both programs are
  this function of the same rows; they differ only in how the long sums over the 40960 features are taken.
-/
import Idealize.ShloMosaic.PureOps.Ideal.Laws
import Idealize.ShloMosaic.Lib.ValueIdx

noncomputable section

open scoped BigOperators

namespace Cert.Nnue

open Idealize.ShloMosaic

/-- The float words of `0.0` and `1.0`, as extended reals (never evaluated: the same words on both sides). -/
abbrev zeroW : EReal := Ideal.ofBits .f32 0x00000000#32
abbrev oneW : EReal := Ideal.ofBits .f32 0x3F800000#32

/-- The clamp to [0, 1] as both programs spell it: the maximum with 0 first, then the minimum with 1. -/
def clip01 (x : EReal) : EReal := min oneW (max zeroW x)

/-- Two 256-vectors laid side by side: entry `c` of the 512-vector `a ‖ b`. -/
def join (a b : Fin 256 → EReal) (c : Fin 512) : EReal :=
  if h : c.val < 256 then a ⟨c.val, h⟩ else b ⟨c.val - 256, by have := c.isLt; omega⟩

/-- The clamped perspective mix: `clip (s · (w ‖ b) + (1 − s) · (b ‖ w))` at entry `c`. -/
def mixed (w b : Fin 256 → EReal) (s : EReal) (c : Fin 512) : EReal :=
  clip01 (s * join w b c + (oneW - s) * join b w c)

/-- The hiddenAt layer: `clip (x · l1_wᵀ + l1_b)` at unit `n`. -/
def hiddenAt (x : Fin 512 → EReal) (l1w : Fin 32 → Fin 512 → EReal) (l1b : Fin 32 → EReal) (n : Fin 32) : EReal :=
  clip01 ((∑ c : Fin 512, x c * l1w n c) + l1b n)

/-- One row's output from its two feature-transform rows. -/
def rowOut (w b : Fin 256 → EReal) (s : EReal) (l1w : Fin 32 → Fin 512 → EReal) (l1b : Fin 32 → EReal)
    (l2w : Fin 32 → EReal) (l2b : EReal) : EReal :=
  (∑ n : Fin 32, hiddenAt (mixed w b s) l1w l1b n * l2w n) + l2b

/-- The whole network at batch row `R`, from the nine argument arrays: the two feature-transform rows are the full sums over
    the 40960 features plus the bias, and `rowOut` does the rest. -/
def network (X Bk : (⟨2, ![4096, 40960]⟩ : Shape).Idx → EReal) (S : (⟨2, ![4096, 1]⟩ : Shape).Idx → EReal)
    (FW : (⟨2, ![256, 40960]⟩ : Shape).Idx → EReal) (FB : (⟨1, ![256]⟩ : Shape).Idx → EReal)
    (L1W : (⟨2, ![32, 512]⟩ : Shape).Idx → EReal) (L1B : (⟨1, ![32]⟩ : Shape).Idx → EReal)
    (L2W : (⟨2, ![1, 32]⟩ : Shape).Idx → EReal) (L2B : (⟨1, ![1]⟩ : Shape).Idx → EReal) (R : Fin 4096) : EReal :=
  rowOut (fun j => (∑ k : Fin 40960, X (ValueIdx.ix2 R k) * FW (ValueIdx.ix2 j k)) + FB (ValueIdx.ix1 j))
    (fun j => (∑ k : Fin 40960, Bk (ValueIdx.ix2 R k) * FW (ValueIdx.ix2 j k)) + FB (ValueIdx.ix1 j))
    (S (ValueIdx.ix2 R (0 : Fin 1))) (fun n c => L1W (ValueIdx.ix2 n c)) (fun n => L1B (ValueIdx.ix1 n))
    (fun n => L2W (ValueIdx.ix2 (0 : Fin 1) n)) (L2B (ValueIdx.ix1 (0 : Fin 1)))

/-- The result array: one entry per batch row. -/
def result (X Bk : (⟨2, ![4096, 40960]⟩ : Shape).Idx → EReal) (S : (⟨2, ![4096, 1]⟩ : Shape).Idx → EReal)
    (FW : (⟨2, ![256, 40960]⟩ : Shape).Idx → EReal) (FB : (⟨1, ![256]⟩ : Shape).Idx → EReal)
    (L1W : (⟨2, ![32, 512]⟩ : Shape).Idx → EReal) (L1B : (⟨1, ![32]⟩ : Shape).Idx → EReal)
    (L2W : (⟨2, ![1, 32]⟩ : Shape).Idx → EReal) (L2B : (⟨1, ![1]⟩ : Shape).Idx → EReal) :
    (⟨2, ![4096, 1]⟩ : Shape).Idx → EReal :=
  fun i => network X Bk S FW FB L1W L1B L2W L2B ⟨(i 0).val, ValueIdx.idx2_lt0 i⟩

end Cert.Nnue

end
-- ==== Proof.KernelTail.lean ====
/-
  The kernel body's arithmetic, read entry by entry on the extended reals.

  The body's stored values are pure functions of the blocks it loads (the generated payloads).  Over the extended reals:

  * the zero blocks the first feature tile stores are zero at every entry;
  * an accumulator update adds, at entry (r, j), the inner product over the tile's 2048 features of row `r` of the feature
    block with row `j` of the weight block (the rounding of both operands to a shorter float format is the identity);
  * the output block's entry `r`, computed at the last feature tile, is `rowOut` of row `r` of the two accumulators with the
    bias row added: the concatenations are read by which half a column falls in, the two broadcast columns `s` and
    `1 − s` at the row, the first dense layer as inner products of the clamped mix with the rows of `l1_w`, and the last
    layer — a product with the one row of `l2_w` broadcast over the block, summed along each row — as the same inner
    product the reference takes.
-/
import proofs.«179666_j9148280341053_2_alg».proof.Proof.Gen.KernelIdeal.Skeleton
import proofs.«179666_j9148280341053_2_alg».proof.Proof.LibDotRows
import proofs.«179666_j9148280341053_2_alg».proof.Proof.LibColumns
import proofs.«179666_j9148280341053_2_alg».proof.Proof.Spec
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Tail

open Cert.KernelIdeal Cert.KernelIdeal.Gen Cert.Nnue

/-! ## The zero blocks and the accumulator update -/

theorem pay1_apply (r : Fin 512) (j : Fin 256) : k0_pay1 (F := Ideal) (ix2 r j) = 0 := by
  unfold k0_pay1
  rw [shapeCast_self]
  exact Ideal.ofBits_zero_f32

theorem pay2_apply (r : Fin 512) (j : Fin 256) : k0_pay2 (F := Ideal) (ix2 r j) = 0 := by
  unfold k0_pay2
  rw [shapeCast_self]
  exact Ideal.ofBits_zero_f32

theorem pay4_apply (x0 : Vec Ideal S512x2048 .f32) (x2 : Vec Ideal S256x2048 .f32) (acc : Vec Ideal S512x256 .f32)
    (r : Fin 512) (j : Fin 256) :
    k0_pay4 (F := Ideal) x0 x2 acc (ix2 r j) = acc (ix2 r j) + ∑ u : Fin 2048, x0 (ix2 r u) * x2 (ix2 j u) := by
  unfold k0_pay4 k0_pay3
  dsimp only
  rw [shapeCast_self]
  exact congrArg (acc (ix2 r j) + ·) (Cert.Lib.DotRows.matmul_rows_apply _ rfl none _ _ r j)

theorem pay5_apply (x1 : Vec Ideal S512x2048 .f32) (x2 : Vec Ideal S256x2048 .f32) (acc : Vec Ideal S512x256 .f32)
    (r : Fin 512) (j : Fin 256) :
    k0_pay5 (F := Ideal) x1 x2 acc (ix2 r j) = acc (ix2 r j) + ∑ u : Fin 2048, x1 (ix2 r u) * x2 (ix2 j u) := by
  unfold k0_pay5 k0_pay3
  dsimp only
  rw [shapeCast_self]
  exact congrArg (acc (ix2 r j) + ·) (Cert.Lib.DotRows.matmul_rows_apply _ rfl none _ _ r j)

theorem pay8_apply (v60 : Vec Ideal S1x32 .f32) (r : Fin 512) (n : Fin 32) :
    k0_pay8 (F := Ideal) v60 (ix2 r n) = v60 (ix2 (0 : Fin 1) n) := by
  unfold k0_pay8
  exact broadcastTo_1b_ab_apply v60 _ r n

/-- Putting coordinate `k` back on the reduced last axis of a row index gives `(r, k)`. -/
theorem lift_last {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

theorem rowSum_apply (v : FVec Ideal S512x32 .f32) (h : S512x32.Reduces [1] S512) (hφ : FKind.Formats FTy.f32)
    (hacc : (0x00000000#32 : BitVec 32) = FKind.add.neutral FTy.f32 hφ) (r : Fin 512) :
    multiReduction .add [1] S512 v 0x00000000#32 h hφ hacc (ix1 r) = ∑ n : Fin 32, v (ix2 r n) := by
  refine (Ideal.multiReduction_add_single v 0x00000000#32 h hφ hacc (ix1 r)).trans ?_
  exact Finset.sum_congr rfl fun k _ => congrArg v (lift_last h r k)

theorem pay6_apply (v59 v61 : FVec Ideal S512x32 .f32) (v65 : Vec Ideal S1x1 .f32) (r : Fin 512) (u : Fin 1) :
    k0_pay6 (F := Ideal) v59 v61 v65 (ix2 r u) = (∑ n : Fin 32, v59 (ix2 r n) * v61 (ix2 r n)) + v65 (ix2 (0 : Fin 1) (0 : Fin 1)) := by
  unfold k0_pay6
  dsimp only
  rw [shapeCast_self]
  obtain rfl : u = 0 := Subsingleton.elim _ _
  refine (addf_apply _ _ _).trans (congrArg₂ (· + ·) ?_ ?_)
  · refine (shapeCast_a_a1_apply _ _ r 0).trans ?_
    exact rowSum_apply (mulf v59 v61) _ _ _ r
  · exact broadcastTo_1b_ab_apply v65 _ r 0

/-- Entry `c` of two 256-wide blocks laid side by side along the columns. -/
theorem concat_apply (a b : FVec Ideal S512x256 .f32) (h : Shape.Concatenates [S512x256, S512x256] S512x512 1) (r : Fin 512) (c : Fin 512) :
    concatenate S512x512 1 [⟨S512x256, a⟩, ⟨S512x256, b⟩] h (ix2 r c) = join (fun j => a (ix2 r j)) (fun j => b (ix2 r j)) c := by
  unfold join
  by_cases hc : c.val < 256
  · rw [dif_pos hc]
    exact concatenate_pair_apply_left (1 : Fin 2) a b h (ix2 r c) rfl (ix2 r ⟨c.val, hc⟩) (fun d => by fin_cases d <;> rfl)
  · rw [dif_neg hc]
    have hc' : c.val - 256 < 256 := by have := c.isLt; omega
    refine concatenate_pair_apply_right (1 : Fin 2) a b h (ix2 r c) rfl rfl (ix2 r ⟨c.val - 256, hc'⟩) (fun d hd => ?_) ?_
    · fin_cases d
      · rfl
      · exact absurd rfl hd
    · show (c.val - 256) + 256 = c.val
      omega

/-- A biased accumulator row: the accumulator plus the bias row broadcast over the 512 rows. -/
theorem biased_apply (acc : FVec Ideal S512x256 .f32) (fb : FVec Ideal S1x256 .f32) (hc : S1x256.ShapeCasts S1x256)
    (h : S1x256.Broadcasts S512x256) (r : Fin 512) (j : Fin 256) :
    (addf acc (broadcastTo S512x256 (shapeCast S1x256 fb hc) h) : FVec Ideal S512x256 .f32) (ix2 r j)
      = acc (ix2 r j) + fb (ix2 (0 : Fin 1) j) := by
  rw [shapeCast_self]
  exact (addf_apply _ _ _).trans (congrArg (acc (ix2 r j) + ·) (broadcastTo_1b_ab_apply fb h r j))

theorem pay7_apply (v24 : Vec Ideal S512x256 .f32) (v25 : Vec Ideal S1x256 .f32) (v29 : Vec Ideal S512x256 .f32)
    (v30 : Vec Ideal S1x256 .f32) (v34 : Vec Ideal S512x1 .f32) (v49 : Vec Ideal S32x512 .f32) (v52 : Vec Ideal S1x32 .f32)
    (r : Fin 512) (n : Fin 32) :
    k0_pay7 (F := Ideal) v24 v25 v29 v30 v34 v49 v52 (ix2 r n)
      = hiddenAt (mixed (fun j => v24 (ix2 r j) + v25 (ix2 (0 : Fin 1) j)) (fun j => v29 (ix2 r j) + v30 (ix2 (0 : Fin 1) j))
            (v34 (ix2 r (0 : Fin 1)))) (fun n c => v49 (ix2 n c)) (fun n => v52 (ix2 (0 : Fin 1) n)) n := by
  unfold k0_pay7
  simp only [shapeCast_self]
  unfold hiddenAt clip01
  refine congrArg (min oneW) (congrArg (max zeroW) (congrArg₂ (· + ·) ?_ (broadcastTo_1b_ab_apply v52 _ r n)))
  refine (Cert.Lib.DotRows.matmul_rows_apply _ rfl none _ _ r n).trans (Finset.sum_congr rfl fun c _ => congrArg (· * v49 (ix2 n c)) ?_)
  unfold mixed clip01
  refine congrArg (min oneW) (congrArg (max zeroW) (congrArg₂ (· + ·) (congrArg₂ (· * ·) ?_ ?_) (congrArg₂ (· * ·) ?_ ?_)))
  · exact broadcastTo_a1_ab_apply v34 _ r c
  · refine (concat_apply _ _ _ r c).trans ?_
    exact congrArg₂ (fun a b => join a b c) (funext fun j => biased_apply v24 v25 _ _ r j) (funext fun j => biased_apply v29 v30 _ _ r j)
  · exact broadcastTo_a1_ab_apply _ _ r c
  · refine (concat_apply _ _ _ r c).trans ?_
    exact congrArg₂ (fun a b => join a b c) (funext fun j => biased_apply v29 v30 _ _ r j) (funext fun j => biased_apply v24 v25 _ _ r j)

/-- THE OUTPUT BLOCK AT A ROW: from the two accumulators as the last feature tile leaves them, the bias row, the side-to-move
    column and the small weights, entry `r` of the block the body stores is `rowOut` of row `r` of the biased accumulators. -/
theorem tail_apply (accW accB : Vec Ideal S512x256 .f32) (fb : Vec Ideal S1x256 .f32) (st : Vec Ideal S512x1 .f32)
    (l1w : Vec Ideal S32x512 .f32) (l1b : Vec Ideal S1x32 .f32) (l2w : Vec Ideal S1x32 .f32) (l2b : Vec Ideal S1x1 .f32)
    (r : Fin 512) (u : Fin 1) :
    k0_pay6 (F := Ideal) (k0_pay7 accW fb accB fb st l1w l1b) (k0_pay8 l2w) l2b (ix2 r u)
      = rowOut (fun j => accW (ix2 r j) + fb (ix2 (0 : Fin 1) j)) (fun j => accB (ix2 r j) + fb (ix2 (0 : Fin 1) j))
          (st (ix2 r (0 : Fin 1))) (fun n c => l1w (ix2 n c)) (fun n => l1b (ix2 (0 : Fin 1) n))
          (fun n => l2w (ix2 (0 : Fin 1) n)) (l2b (ix2 (0 : Fin 1) (0 : Fin 1))) := by
  rw [pay6_apply]
  unfold rowOut
  refine congrArg (· + l2b (ix2 (0 : Fin 1) (0 : Fin 1))) (Finset.sum_congr rfl fun n _ => ?_)
  rw [pay7_apply, pay8_apply]

end Cert.KernelIdeal.Tail
end
-- ==== Proof.LibBlockSum.lean ====
/-
  General facts for setting a sum that is computed block by block beside the same sum computed in one pass.

  * `sum_range_blocks`: in any additive commutative monoid, the sum of `f` over the first `d · n` naturals is the sum,
    over the `n` consecutive blocks of length `d`, of each block's own sum. Only associativity and commutativity of
    the addition are used, so it holds on the extended reals, infinities included.
  * `at1`, `at2`: an array of rank one or two read at NATURAL coordinates — its entry when the coordinates are inside
    the extents, zero outside. With them a sum over positions of an array is a sum over naturals, and block offsets
    are plain arithmetic. `at1_eq` / `at2_eq`: at the coordinates of an index, they are the entry at that index.
-/
import Mathlib.Algebra.BigOperators.Intervals
import Mathlib.Algebra.BigOperators.Fin
import Idealize.ShloMosaic.Lib.ValueIdx

namespace Cert.LibBlockSum

open Finset Idealize.ShloMosaic Idealize.ShloMosaic.ValueIdx

/-- A sum over the first `d · n` naturals, regrouped into `n` consecutive blocks of `d` terms: position `d · s + k`
    is term `k` of block `s`. By induction on the number of blocks: the last block is split off the end of the range. -/
theorem sum_range_blocks {M : Type*} [AddCommMonoid M] (f : ℕ → M) (d : ℕ) :
    ∀ n : ℕ, ∑ i ∈ range (d * n), f i = ∑ s ∈ range n, ∑ k ∈ range d, f (d * s + k)
  | 0 => by simp
  | n + 1 => by
    rw [Nat.mul_succ, sum_range_add, sum_range_blocks f d n, sum_range_succ]

/-- A rank-1 array read at a natural coordinate: the entry there, or zero past the extent. -/
def at1 {M : Type*} [Zero M] {n : ℕ} (B : (⟨1, ![n]⟩ : Shape).Idx → M) (a : ℕ) : M :=
  if h : a < n then B (ix1 ⟨a, h⟩) else 0

/-- At the coordinate of an index, `at1` is the entry at that index. -/
theorem at1_eq {M : Type*} [Zero M] {n : ℕ} (B : (⟨1, ![n]⟩ : Shape).Idx → M) (i : (⟨1, ![n]⟩ : Shape).Idx) (a : ℕ)
    (ha : (i 0).val = a) : at1 B a = B i := by
  subst ha
  unfold at1
  rw [dif_pos (show (i 0).val < n from (i 0).isLt)]
  exact congrArg B (eq_ix1 i).symm

/-- A rank-2 array read at natural coordinates: the entry there, or zero outside the extents. -/
def at2 {M : Type*} [Zero M] {n0 n1 : ℕ} (A : (⟨2, ![n0, n1]⟩ : Shape).Idx → M) (a b : ℕ) : M :=
  if h : a < n0 ∧ b < n1 then A (ix2 ⟨a, h.1⟩ ⟨b, h.2⟩) else 0

/-- At the coordinates of an index, `at2` is the entry at that index. -/
theorem at2_eq {M : Type*} [Zero M] {n0 n1 : ℕ} (A : (⟨2, ![n0, n1]⟩ : Shape).Idx → M)
    (i : (⟨2, ![n0, n1]⟩ : Shape).Idx) (a b : ℕ) (ha : (i 0).val = a) (hb : (i 1).val = b) : at2 A a b = A i := by
  subst ha; subst hb
  unfold at2
  rw [dif_pos ⟨idx2_lt0 i, idx2_lt1 i⟩]
  exact congrArg A (eq_ix2 i).symm

end Cert.LibBlockSum
-- ==== Proof.Blocks.lean ====
/-
  What the kernel's windows hand the body at each grid point, as reads of the whole arrays.

  The grid has 8 × 20 points; point `t` works on batch tile `t / 20` (512 rows) and feature tile `t % 20` (2048 features).
  The two feature arrays are cut in 512 × 2048 blocks at (t / 20, t % 20), the feature weights in 256 × 2048 blocks at
  (0, t % 20), the side-to-move column and the result in 512 × 1 blocks at (t / 20, 0); the small operands are one block each.
  A block's entry (r, u) is therefore the array's entry at row (block row) · (rows per block) + r and likewise for columns.
  The long arrays are read at natural-number coordinates so that tile offsets are plain arithmetic.

  Three of the small operands (both biases of the dense layers and the feature-transform bias) reach the kernel as rows
  [1, n]: the program reshapes the vectors [n] before it launches the kernel.
-/
import proofs.«179666_j9148280341053_2_alg».proof.Proof.Gen.KernelIdeal.Frame
import proofs.«179666_j9148280341053_2_alg».proof.Proof.LibBlockSum
import Idealize.ShloMosaic.Lib.Pipeline.Value
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.LibBlockSum

variable (m : (ℓ : Loc nD τ sig) → Buf (Elt Ideal) ℓ)

/-! ## The arrays the region is entered with, typed as arrays of extended reals -/

def white (c : Dev nD) : S4096x40960.Idx → EReal := V m c main_arg0
def black (c : Dev nD) : S4096x40960.Idx → EReal := V m c main_arg1
def stm (c : Dev nD) : S4096x1.Idx → EReal := V m c main_arg2
def ftw (c : Dev nD) : S256x40960.Idx → EReal := V m c main_arg3
def ftbRow (c : Dev nD) : S1x256.Idx → EReal := V m c main_v0
def l1w (c : Dev nD) : S32x512.Idx → EReal := V m c main_arg5
def l1bRow (c : Dev nD) : S1x32.Idx → EReal := V m c main_v1
def l2w (c : Dev nD) : S1x32.Idx → EReal := V m c main_arg7
def l2bCell (c : Dev nD) : S1x1.Idx → EReal := V m c main_v2

/-- Where each window's block sits at grid point `t`: batch tile `t / 20`, feature tile `t % 20`. -/
theorem block_index : ∀ t : Fin cfg0.N,
    win0_0.index t (0 : Fin 2) = t.val / 20 ∧ win0_0.index t (1 : Fin 2) = t.val % 20
    ∧ win0_1.index t (0 : Fin 2) = t.val / 20 ∧ win0_1.index t (1 : Fin 2) = t.val % 20
    ∧ win0_2.index t (0 : Fin 2) = 0 ∧ win0_2.index t (1 : Fin 2) = t.val % 20
    ∧ win0_8.index t (0 : Fin 2) = t.val / 20 ∧ win0_8.index t (1 : Fin 2) = 0
    ∧ win0_9.index t (0 : Fin 2) = t.val / 20 ∧ win0_9.index t (1 : Fin 2) = 0 :=
  (by decide +kernel : ∀ t : Fin grid0.N, _)

theorem whole_index : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The blocks the windows hand the body at grid point `t` -/

theorem white_block (c : Dev nD) (t : Fin cfg0.N) (r : Fin 512) (u : Fin 2048) :
    (iblk m c 0 t : Vec Ideal S512x2048 .f32) (ix2 r u)
      = at2 (white m c) (512 * (t.val / 20) + r.val) (2048 * (t.val % 20) + u.val) := by
  unfold iblk
  rw [View.read_apply]
  show V m c main_arg0 (((cfg0.win 0).blk t).view.emb (ix2 r u)) = _
  refine (at2_eq (white m c) _ _ _ ?_ ?_).symm
  · show win0_0.index t 0 * 512 + 1 * r.val = _
    rw [(block_index t).1]; omega
  · show win0_0.index t 1 * 2048 + 1 * u.val = _
    rw [(block_index t).2.1]; omega

theorem black_block (c : Dev nD) (t : Fin cfg0.N) (r : Fin 512) (u : Fin 2048) :
    (iblk m c 1 t : Vec Ideal S512x2048 .f32) (ix2 r u)
      = at2 (black m c) (512 * (t.val / 20) + r.val) (2048 * (t.val % 20) + u.val) := by
  unfold iblk
  rw [View.read_apply]
  show V m c main_arg1 (((cfg0.win 1).blk t).view.emb (ix2 r u)) = _
  refine (at2_eq (black m c) _ _ _ ?_ ?_).symm
  · show win0_1.index t 0 * 512 + 1 * r.val = _
    rw [(block_index t).2.2.1]; omega
  · show win0_1.index t 1 * 2048 + 1 * u.val = _
    rw [(block_index t).2.2.2.1]; omega

theorem ftw_block (c : Dev nD) (t : Fin cfg0.N) (r : Fin 256) (u : Fin 2048) :
    (iblk m c 2 t : Vec Ideal S256x2048 .f32) (ix2 r u)
      = at2 (ftw m c) (r.val) (2048 * (t.val % 20) + u.val) := by
  unfold iblk
  rw [View.read_apply]
  show V m c main_arg3 (((cfg0.win 2).blk t).view.emb (ix2 r u)) = _
  refine (at2_eq (ftw m c) _ _ _ ?_ ?_).symm
  · show win0_2.index t 0 * 256 + 1 * r.val = _
    rw [(block_index t).2.2.2.2.1]; omega
  · show win0_2.index t 1 * 2048 + 1 * u.val = _
    rw [(block_index t).2.2.2.2.2.1]; omega

theorem stm_block (c : Dev nD) (t : Fin cfg0.N) (r : Fin 512) (u : Fin 1) :
    (iblk m c 8 t : Vec Ideal S512x1 .f32) (ix2 r u)
      = at2 (stm m c) (512 * (t.val / 20) + r.val) (u.val) := by
  unfold iblk
  rw [View.read_apply]
  show V m c main_arg2 (((cfg0.win 8).blk t).view.emb (ix2 r u)) = _
  refine (at2_eq (stm m c) _ _ _ ?_ ?_).symm
  · show win0_8.index t 0 * 512 + 1 * r.val = _
    rw [(block_index t).2.2.2.2.2.2.1]; omega
  · show win0_8.index t 1 * 1 + 1 * u.val = _
    rw [(block_index t).2.2.2.2.2.2.2.1]; omega

theorem ftb_block (c : Dev nD) (t : Fin cfg0.N) (r : Fin 1) (u : Fin 256) :
    (iblk m c 3 t : Vec Ideal S1x256 .f32) (ix2 r u) = ftbRow m c (ix2 r u) := by
  unfold iblk
  rw [View.read_apply]
  show ftbRow m c (((cfg0.win 3).blk t).view.emb (ix2 r u)) = ftbRow m c (ix2 r u)
  refine congrArg (ftbRow m c) (funext fun d => Fin.ext ?_)
  match d with
  | ⟨0, _⟩ =>
    show win0_3.index t 0 * 1 + 1 * r.val = r.val
    rw [(whole_index t).1]; omega
  | ⟨1, _⟩ =>
    show win0_3.index t 1 * 256 + 1 * u.val = u.val
    rw [(whole_index t).2.1]; omega

theorem l1w_block (c : Dev nD) (t : Fin cfg0.N) (r : Fin 32) (u : Fin 512) :
    (iblk m c 4 t : Vec Ideal S32x512 .f32) (ix2 r u) = l1w m c (ix2 r u) := by
  unfold iblk
  rw [View.read_apply]
  show l1w m c (((cfg0.win 4).blk t).view.emb (ix2 r u)) = l1w m c (ix2 r u)
  refine congrArg (l1w m c) (funext fun d => Fin.ext ?_)
  match d with
  | ⟨0, _⟩ =>
    show win0_4.index t 0 * 32 + 1 * r.val = r.val
    rw [(whole_index t).2.2.1]; omega
  | ⟨1, _⟩ =>
    show win0_4.index t 1 * 512 + 1 * u.val = u.val
    rw [(whole_index t).2.2.2.1]; omega

theorem l1b_block (c : Dev nD) (t : Fin cfg0.N) (r : Fin 1) (u : Fin 32) :
    (iblk m c 5 t : Vec Ideal S1x32 .f32) (ix2 r u) = l1bRow m c (ix2 r u) := by
  unfold iblk
  rw [View.read_apply]
  show l1bRow m c (((cfg0.win 5).blk t).view.emb (ix2 r u)) = l1bRow m c (ix2 r u)
  refine congrArg (l1bRow m c) (funext fun d => Fin.ext ?_)
  match d with
  | ⟨0, _⟩ =>
    show win0_5.index t 0 * 1 + 1 * r.val = r.val
    rw [(whole_index t).2.2.2.2.1]; omega
  | ⟨1, _⟩ =>
    show win0_5.index t 1 * 32 + 1 * u.val = u.val
    rw [(whole_index t).2.2.2.2.2.1]; omega

theorem l2w_block (c : Dev nD) (t : Fin cfg0.N) (r : Fin 1) (u : Fin 32) :
    (iblk m c 6 t : Vec Ideal S1x32 .f32) (ix2 r u) = l2w m c (ix2 r u) := by
  unfold iblk
  rw [View.read_apply]
  show l2w m c (((cfg0.win 6).blk t).view.emb (ix2 r u)) = l2w m c (ix2 r u)
  refine congrArg (l2w m c) (funext fun d => Fin.ext ?_)
  match d with
  | ⟨0, _⟩ =>
    show win0_6.index t 0 * 1 + 1 * r.val = r.val
    rw [(whole_index t).2.2.2.2.2.2.1]; omega
  | ⟨1, _⟩ =>
    show win0_6.index t 1 * 32 + 1 * u.val = u.val
    rw [(whole_index t).2.2.2.2.2.2.2.1]; omega

theorem l2b_block (c : Dev nD) (t : Fin cfg0.N) (r : Fin 1) (u : Fin 1) :
    (iblk m c 7 t : Vec Ideal S1x1 .f32) (ix2 r u) = l2bCell m c (ix2 r u) := by
  unfold iblk
  rw [View.read_apply]
  show l2bCell m c (((cfg0.win 7).blk t).view.emb (ix2 r u)) = l2bCell m c (ix2 r u)
  refine congrArg (l2bCell m c) (funext fun d => Fin.ext ?_)
  match d with
  | ⟨0, _⟩ =>
    show win0_7.index t 0 * 1 + 1 * r.val = r.val
    rw [(whole_index t).2.2.2.2.2.2.2.2.1]; omega
  | ⟨1, _⟩ =>
    show win0_7.index t 1 * 1 + 1 * u.val = u.val
    rw [(whole_index t).2.2.2.2.2.2.2.2.2]; omega

/-! ## The three arrays the host reshapes before the region -/

theorem ftbRow_eq (c : Dev nD) :
    ftbRow m c = shapeCast S1x256 (m ((c : Thread nD τ).loc main_arg4)) Facts₀.shapeCasts_S256_S1x256 := by
  unfold ftbRow
  dsimp only [Gen.V, Gen.hostOps0]
  after_results
  rfl

theorem l1bRow_eq (c : Dev nD) :
    l1bRow m c = shapeCast S1x32 (m ((c : Thread nD τ).loc main_arg6)) Facts₀.shapeCasts_S32_S1x32 := by
  unfold l1bRow
  dsimp only [Gen.V, Gen.hostOps0]
  after_results
  rfl

theorem l2bCell_eq (c : Dev nD) :
    l2bCell m c = shapeCast S1x1 (m ((c : Thread nD τ).loc main_arg8)) Facts₀.shapeCasts_S1_S1x1 := by
  unfold l2bCell
  dsimp only [Gen.V, Gen.hostOps0]
  after_results
  rfl

end Cert.KernelIdeal.Blocks
end
-- ==== Proof.Accum.lean ====
/-
  The two accumulators across the grid: what they hold after every grid point.

  Point `t` of the 8 × 20 grid adds, to each accumulator entry (r, j), the inner product over feature tile `t % 20` of batch
  row `512 · (t / 20) + r` with weight row `j`; at the first tile of a batch tile the sum starts from the zero block.  So after
  point `t` an accumulator holds the sum of those inner products over the tiles `0 … t % 20` of its batch tile — proved by
  induction on the point, using only that addition on the extended reals has 0 as a left unit and that a sum over
  `0 … n` is the sum over `0 … n − 1` plus the last term.
-/
import proofs.«179666_j9148280341053_2_alg».proof.Proof.Pieces
import proofs.«179666_j9148280341053_2_alg».proof.Proof.KernelTail
import proofs.«179666_j9148280341053_2_alg».proof.Proof.Blocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.LibBlockSum Finset

variable (m : (ℓ : Loc nD τ sig) → Buf (Elt Ideal) ℓ)

/-- The inner product, over feature tile `s` (features `2048 s … 2048 s + 2047`), of row `R` of a feature array with row `j` of
    the feature weights. -/
def tileDot (A : S4096x40960.Idx → EReal) (W : S256x40960.Idx → EReal) (R j s : ℕ) : EReal :=
  ∑ u ∈ range 2048, at2 A R (2048 * s + u) * at2 W j (2048 * s + u)

/-- A block of features against a block of weights, entry (r, j): when the blocks are the arrays' entries of tile `s` in rows
    `R` and `j`, their inner product is the tile's. -/
theorem tile_of_blocks (A : S4096x40960.Idx → EReal) (W : S256x40960.Idx → EReal) (x0 : Vec Ideal S512x2048 .f32)
    (x2 : Vec Ideal S256x2048 .f32) (R s : ℕ) (r : Fin 512) (j : Fin 256)
    (h0 : ∀ u : Fin 2048, x0 (ix2 r u) = at2 A R (2048 * s + u.val))
    (h2 : ∀ u : Fin 2048, x2 (ix2 j u) = at2 W j.val (2048 * s + u.val)) :
    ∑ u : Fin 2048, x0 (ix2 r u) * x2 (ix2 j u) = tileDot A W R j.val s := by
  unfold tileDot
  rw [Finset.sum_range]
  exact Finset.sum_congr rfl fun u _ => by rw [h0, h2]

/-! ## The accumulator of the white features -/

/-- At the first feature tile of a batch tile the accumulator holds that tile's inner products (added to the zero block). -/
theorem accW_first (c : Dev nD) (t : Fin cfg0.N) (h0 : t.val % 20 = 0) (r : Fin 512) (j : Fin 256) :
    (outsAt0 m c t.val t.isLt).2.1 (ix2 r j)
      = tileDot (white m c) (ftw m c) (512 * (t.val / 20) + r.val) j.val (t.val % 20) := by
  have h1 : ¬t.val % 20 = 19 := by omega
  rw [outsAt0_A m c t h0 h1]
  dsimp only
  refine (congrFun (Pieces.scratchW_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) (ix2 r j)).trans ?_
  refine (Tail.pay4_apply (iblk m c 0 t) (iblk m c 2 t) _ r j).trans ?_
  rw [Tail.pay1_apply, zero_add]
  exact tile_of_blocks (white m c) (ftw m c) (iblk m c 0 t) (iblk m c 2 t) _ _ r j
    (fun u => white_block m c t r u) (fun u => ftw_block m c t j u)

/-- At every other feature tile it adds that tile's inner products to what the tile before left. -/
theorem accW_next (c : Dev nD) (t : Fin cfg0.N) (h0 : ¬t.val % 20 = 0) (r : Fin 512) (j : Fin 256) :
    (outsAt0 m c t.val t.isLt).2.1 (ix2 r j)
      = (outsAt0 m c (t.val - 1) (Nat.lt_of_le_of_lt (Nat.sub_le _ _) t.isLt)).2.1 (ix2 r j)
        + tileDot (white m c) (ftw m c) (512 * (t.val / 20) + r.val) j.val (t.val % 20) := by
  have key : ∀ acc : Vec Ideal S512x256 .f32, k0_pay4 (F := Ideal) (iblk m c 0 t) (iblk m c 2 t) acc (ix2 r j)
      = acc (ix2 r j) + tileDot (white m c) (ftw m c) (512 * (t.val / 20) + r.val) j.val (t.val % 20) := fun acc =>
    (Tail.pay4_apply (iblk m c 0 t) (iblk m c 2 t) acc r j).trans (congrArg (acc (ix2 r j) + ·)
      (tile_of_blocks (white m c) (ftw m c) (iblk m c 0 t) (iblk m c 2 t) _ _ r j
        (fun u => white_block m c t r u) (fun u => ftw_block m c t j u)))
  by_cases h1 : t.val % 20 = 19
  · rw [outsAt0_C m c t h0 h1]
    dsimp only
    exact (congrFun (Pieces.scratchW_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 r j)).trans (key _)
  · rw [outsAt0_B m c t h0 h1]
    dsimp only
    exact (congrFun (Pieces.scratchW_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 r j)).trans (key _)

/-- THE RUNNING SUM. After grid point `n` the accumulator holds, at (r, j), the inner products of the tiles `0 … n % 20` of
    batch row `512 · (n / 20) + r` with weight row `j`: by induction on the point. -/
theorem accW_eq (c : Dev nD) : ∀ (n : ℕ) (h : n < cfg0.N) (r : Fin 512) (j : Fin 256),
    (outsAt0 m c n h).2.1 (ix2 r j)
      = ∑ s ∈ range (n % 20 + 1), tileDot (white m c) (ftw m c) (512 * (n / 20) + r.val) j.val s := by
  intro n
  induction n with
  | zero =>
    intro h r j
    exact (accW_first m c ⟨0, h⟩ rfl r j).trans (Finset.sum_range_one _).symm
  | succ n ih =>
    intro h r j
    have hN : n + 1 < 160 := lt_of_lt_of_eq h N_0
    by_cases h0 : (n + 1) % 20 = 0
    · refine (accW_first m c ⟨n + 1, h⟩ h0 r j).trans ?_
      show tileDot _ _ (512 * ((n + 1) / 20) + r.val) j.val ((n + 1) % 20) = _
      rw [h0]
      exact (Finset.sum_range_one _).symm
    · refine (accW_next m c ⟨n + 1, h⟩ h0 r j).trans ?_
      show (outsAt0 m c n _).2.1 (ix2 r j) + tileDot _ _ (512 * ((n + 1) / 20) + r.val) j.val ((n + 1) % 20) = _
      rw [ih (Nat.lt_of_succ_lt h) r j]
      have e1 : (n + 1) / 20 = n / 20 := by omega
      have e2 : (n + 1) % 20 = n % 20 + 1 := by omega
      rw [e1, e2, Finset.sum_range_succ _ (n % 20 + 1)]

/-! ## The accumulator of the black features -/

/-- At the first feature tile of a batch tile the accumulator holds that tile's inner products (added to the zero block). -/
theorem accB_first (c : Dev nD) (t : Fin cfg0.N) (h0 : t.val % 20 = 0) (r : Fin 512) (j : Fin 256) :
    (outsAt0 m c t.val t.isLt).2.2 (ix2 r j)
      = tileDot (black m c) (ftw m c) (512 * (t.val / 20) + r.val) j.val (t.val % 20) := by
  have h1 : ¬t.val % 20 = 19 := by omega
  rw [outsAt0_A m c t h0 h1]
  dsimp only
  refine (congrFun (Pieces.scratchB_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) (ix2 r j)).trans ?_
  refine (Tail.pay5_apply (iblk m c 1 t) (iblk m c 2 t) _ r j).trans ?_
  rw [Tail.pay2_apply, zero_add]
  exact tile_of_blocks (black m c) (ftw m c) (iblk m c 1 t) (iblk m c 2 t) _ _ r j
    (fun u => black_block m c t r u) (fun u => ftw_block m c t j u)

/-- At every other feature tile it adds that tile's inner products to what the tile before left. -/
theorem accB_next (c : Dev nD) (t : Fin cfg0.N) (h0 : ¬t.val % 20 = 0) (r : Fin 512) (j : Fin 256) :
    (outsAt0 m c t.val t.isLt).2.2 (ix2 r j)
      = (outsAt0 m c (t.val - 1) (Nat.lt_of_le_of_lt (Nat.sub_le _ _) t.isLt)).2.2 (ix2 r j)
        + tileDot (black m c) (ftw m c) (512 * (t.val / 20) + r.val) j.val (t.val % 20) := by
  have key : ∀ acc : Vec Ideal S512x256 .f32, k0_pay5 (F := Ideal) (iblk m c 1 t) (iblk m c 2 t) acc (ix2 r j)
      = acc (ix2 r j) + tileDot (black m c) (ftw m c) (512 * (t.val / 20) + r.val) j.val (t.val % 20) := fun acc =>
    (Tail.pay5_apply (iblk m c 1 t) (iblk m c 2 t) acc r j).trans (congrArg (acc (ix2 r j) + ·)
      (tile_of_blocks (black m c) (ftw m c) (iblk m c 1 t) (iblk m c 2 t) _ _ r j
        (fun u => black_block m c t r u) (fun u => ftw_block m c t j u)))
  by_cases h1 : t.val % 20 = 19
  · rw [outsAt0_C m c t h0 h1]
    dsimp only
    exact (congrFun (Pieces.scratchB_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 r j)).trans (key _)
  · rw [outsAt0_B m c t h0 h1]
    dsimp only
    exact (congrFun (Pieces.scratchB_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 r j)).trans (key _)

/-- THE RUNNING SUM. After grid point `n` the accumulator holds, at (r, j), the inner products of the tiles `0 … n % 20` of
    batch row `512 · (n / 20) + r` with weight row `j`: by induction on the point. -/
theorem accB_eq (c : Dev nD) : ∀ (n : ℕ) (h : n < cfg0.N) (r : Fin 512) (j : Fin 256),
    (outsAt0 m c n h).2.2 (ix2 r j)
      = ∑ s ∈ range (n % 20 + 1), tileDot (black m c) (ftw m c) (512 * (n / 20) + r.val) j.val s := by
  intro n
  induction n with
  | zero =>
    intro h r j
    exact (accB_first m c ⟨0, h⟩ rfl r j).trans (Finset.sum_range_one _).symm
  | succ n ih =>
    intro h r j
    have hN : n + 1 < 160 := lt_of_lt_of_eq h N_0
    by_cases h0 : (n + 1) % 20 = 0
    · refine (accB_first m c ⟨n + 1, h⟩ h0 r j).trans ?_
      show tileDot _ _ (512 * ((n + 1) / 20) + r.val) j.val ((n + 1) % 20) = _
      rw [h0]
      exact (Finset.sum_range_one _).symm
    · refine (accB_next m c ⟨n + 1, h⟩ h0 r j).trans ?_
      show (outsAt0 m c n _).2.2 (ix2 r j) + tileDot _ _ (512 * ((n + 1) / 20) + r.val) j.val ((n + 1) % 20) = _
      rw [ih (Nat.lt_of_succ_lt h) r j]
      have e1 : (n + 1) / 20 = n / 20 := by omega
      have e2 : (n + 1) % 20 = n % 20 + 1 := by omega
      rw [e1, e2, Finset.sum_range_succ _ (n % 20 + 1)]

end Cert.KernelIdeal.Accum
end
-- ==== Proof.KernelValue.lean ====
/-
  The kernel's result array is the network's result array of the arguments.

  A batch tile's output block is stored once, at its last feature tile, from the accumulators that tile leaves: by the running
  sums of Accum.lean these hold, at (r, j), the inner products of all twenty tiles of batch row `512 · (t / 20) + r` with weight
  row `j` — that is, regrouping a sum over 40960 = 20 · 2048 consecutive features into its 20 blocks, the full sum over the
  features.  With the bias row, the side-to-move column and the small weights read from their blocks, the tail of the body
  (KernelTail.lean) makes entry `r` of the block the network at that batch row.  The eight blocks written at the points
  `20 p + 19` tile the 4096 rows, so the array after the run is the network's result array; and the arrays the region is
  entered with are the arguments as launched, the reshaped biases being the vectors read as rows.
-/
import proofs.«179666_j9148280341053_2_alg».proof.Proof.Accum
import proofs.«179666_j9148280341053_2_alg».proof.Proof.Gen.KernelIdeal.Value
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Accum Cert.LibBlockSum Cert.Nnue Finset

variable (m : (ℓ : Loc nD τ sig) → Buf (Elt Ideal) ℓ) (ρ : Dev nD → PrngReg)

/-- The twenty tiles' inner products of a row add up to the inner product over all 40960 features: a sum over 20 · 2048
    consecutive positions regrouped into 20 blocks (no finiteness is needed: only that addition is associative and commutative). -/
theorem full_dot (A : S4096x40960.Idx → EReal) (W : S256x40960.Idx → EReal) (R : Fin 4096) (j : Fin 256) :
    ∑ s ∈ range (19 + 1), tileDot A W R.val j.val s = ∑ k : Fin 40960, A (ix2 R k) * W (ix2 j k) := by
  unfold tileDot
  refine (sum_range_blocks (fun k => at2 A R.val k * at2 W j.val k) 2048 20).symm.trans ?_
  rw [show 2048 * 20 = 40960 from rfl, Finset.sum_range]
  exact Finset.sum_congr rfl fun k _ => by
    rw [at2_eq A (ix2 R k) R.val k.val rfl rfl, at2_eq W (ix2 j k) j.val k.val rfl rfl]

/-- `rowOut` of equal data. -/
theorem rowOut_congr {w w' b b' : Fin 256 → EReal} {s s' : EReal} {l1w l1w' : Fin 32 → Fin 512 → EReal}
    {l1b l1b' l2w l2w' : Fin 32 → EReal} {l2b l2b' : EReal} (hw : w = w') (hb : b = b') (hs : s = s') (h1w : l1w = l1w')
    (h1b : l1b = l1b') (h2w : l2w = l2w') (h2b : l2b = l2b') :
    rowOut w b s l1w l1b l2w l2b = rowOut w' b' s' l1w' l1b' l2w' l2b' := by
  subst hw hb hs h1w h1b h2w h2b; rfl

/-- At the last feature tile the accumulators are the update of what the tile before left … -/
theorem accW_last (c : Dev nD) (t : Fin cfg0.N) (h0 : ¬t.val % 20 = 0) (h19 : t.val % 20 = 19) :
    (outsAt0 m c t.val t.isLt).2.1 = k0_pay4 (F := Ideal) (iblk m c 0 t) (iblk m c 2 t) (outsAt0 m c (t.val - 1) (Nat.lt_of_le_of_lt (Nat.sub_le _ _) t.isLt)).2.1 := by
  rw [outsAt0_C m c t h0 h19]
  dsimp only
  exact Pieces.scratchW_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h19) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

theorem accB_last (c : Dev nD) (t : Fin cfg0.N) (h0 : ¬t.val % 20 = 0) (h19 : t.val % 20 = 19) :
    (outsAt0 m c t.val t.isLt).2.2 = k0_pay5 (F := Ideal) (iblk m c 1 t) (iblk m c 2 t) (outsAt0 m c (t.val - 1) (Nat.lt_of_le_of_lt (Nat.sub_le _ _) t.isLt)).2.2 := by
  rw [outsAt0_C m c t h0 h19]
  dsimp only
  exact Pieces.scratchB_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h19) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

/-- … and the output block is the tail of the body applied to those updated accumulators. -/
theorem out_last_eq (c : Dev nD) (t : Fin cfg0.N) (h19 : t.val % 20 = 19) :
    (outsAt0 m c t.val t.isLt).1
      = k0_pay6 (F := Ideal) (k0_pay7 (outsAt0 m c t.val t.isLt).2.1 (iblk m c 3 t) (outsAt0 m c t.val t.isLt).2.2 (iblk m c 3 t)
          (iblk m c 8 t) (iblk m c 4 t) (iblk m c 5 t)) (k0_pay8 (iblk m c 6 t)) (iblk m c 7 t) := by
  have h0 : ¬t.val % 20 = 0 := by omega
  rw [accW_last m c t h0 h19, accB_last m c t h0 h19, outsAt0_C m c t h0 h19]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h19) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

/-- The network's result array over the arrays as the region finds them. -/
def res (c : Dev nD) : S4096x1.Idx → EReal :=
  result (white m c) (black m c) (stm m c) (ftw m c) (m ((c : Thread nD τ).loc main_arg4)) (l1w m c) (m ((c : Thread nD τ).loc main_arg6)) (l2w m c) (m ((c : Thread nD τ).loc main_arg8))

/-- THE OUTPUT BLOCK IS THE NETWORK ON ITS ROWS: entry `r` of the block stored at the last tile of batch tile `t / 20` is the
    network at batch row `512 · (t / 20) + r`. -/
theorem out_row (c : Dev nD) (t : Fin cfg0.N) (h19 : t.val % 20 = 19) (r : Fin 512) (u : Fin 1) (R : Fin 4096)
    (hR : R.val = 512 * (t.val / 20) + r.val) :
    (outsAt0 m c t.val t.isLt).1 (ix2 r u)
      = network (white m c) (black m c) (stm m c) (ftw m c) (m ((c : Thread nD τ).loc main_arg4)) (l1w m c) (m ((c : Thread nD τ).loc main_arg6)) (l2w m c) (m ((c : Thread nD τ).loc main_arg8)) R := by
  rw [out_last_eq m c t h19]
  refine (Tail.tail_apply _ _ (iblk m c 3 t) (iblk m c 8 t) (iblk m c 4 t) (iblk m c 5 t) (iblk m c 6 t) (iblk m c 7 t) r u).trans ?_
  unfold network
  refine rowOut_congr (funext fun j => ?_) (funext fun j => ?_) ?_ (funext fun n => funext fun c' => ?_) (funext fun n => ?_)
    (funext fun n => ?_) ?_
  · rw [accW_eq m c t.val t.isLt r j, h19, ← hR, full_dot, ftb_block, ftbRow_eq, shapeCast_a_1a_apply]
  · rw [accB_eq m c t.val t.isLt r j, h19, ← hR, full_dot, ftb_block, ftbRow_eq, shapeCast_a_1a_apply]
  · rw [stm_block, ← hR]
    exact at2_eq (stm m c) (ix2 R (0 : Fin 1)) R.val 0 rfl rfl
  · exact l1w_block m c t n c'
  · rw [l1b_block, l1bRow_eq, shapeCast_a_1a_apply]
  · exact l2w_block m c t 0 n
  · rw [l2b_block, l2bCell_eq, shapeCast_a_1a_apply]

/-! ## From the blocks to the result array -/

/-- WHAT A WRITING POINT WRITES BACK is its block of the network's result array. -/
theorem flushed_eq (c : Dev nD) (t : Fin cfg0.N) (hf : (cfg0.win 9).flush t = true) :
    (dats m 0 c).flushed 9 t = ((cfg0.win 9).blk t).view.read (Elt Ideal) (res m c) := by
  have h19 : t.val % 20 = 19 := (flush0_9 t).mp hf
  have hN : t.val < 160 := lt_of_lt_of_eq t.isLt N_0
  show (cfg0.win 9).cut (grid0.coords t) ((dats m 0 c).after 9 t) = _
  rw [after0_9]
  funext y
  obtain ⟨r, u, rfl⟩ : ∃ (r : Fin 512) (u : Fin 1), y = ix2 r u := ⟨y 0, y 1, eq_ix2 y⟩
  rw [View.read_apply]
  show (outsAt0 m c t.val t.isLt).1 (ix2 r u) = res m c (((cfg0.win 9).blk t).view.emb (ix2 r u))
  rw [out_row m c t h19 r u ⟨512 * (t.val / 20) + r.val, by have := r.isLt; omega⟩ rfl]
  unfold res result
  refine congrArg (network (white m c) (black m c) (stm m c) (ftw m c) (m ((c : Thread nD τ).loc main_arg4)) (l1w m c) (m ((c : Thread nD τ).loc main_arg6)) (l2w m c) (m ((c : Thread nD τ).loc main_arg8))) (Fin.ext ?_)
  show 512 * (t.val / 20) + r.val = win0_9.index t 0 * 512 + 1 * r.val
  rw [(block_index t).2.2.2.2.2.2.2.2.1]; omega

/-- An index of the result array is in point `t`'s block iff each coordinate is in the block's range on its axis. -/
theorem mem_blk (t : Fin cfg0.N) (i : S4096x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v3).slice (win0_9.rect t)).set ↔ _
  rw [View.set_slice_whole, Rect.mem_set_unit]
  exact Iff.rfl

/-- Every row of the result lies in the block written at the last feature tile of its batch tile. -/
theorem covered (i : S4096x1.Idx) : ∃ t : Fin cfg0.N, (cfg0.win 9).flush t = true ∧ i ∈ ((cfg0.win 9).blk t).view.set := by
  have hi0 : (i 0).val < 4096 := (i 0).isLt
  have hi1 : (i 1).val < 1 := (i 1).isLt
  have hN : cfg0.N = 160 := N_0
  have ht : 20 * ((i 0).val / 512) + 19 < cfg0.N := by rw [hN]; omega
  refine ⟨⟨20 * ((i 0).val / 512) + 19, ht⟩, (flush0_9 _).mpr (by show (20 * ((i 0).val / 512) + 19) % 20 = 19; omega), ?_⟩
  rw [mem_blk]
  have e0 := (block_index ⟨20 * ((i 0).val / 512) + 19, ht⟩).2.2.2.2.2.2.2.2.1
  have e1 := (block_index ⟨20 * ((i 0).val / 512) + 19, ht⟩).2.2.2.2.2.2.2.2.2
  intro a
  match a with
  | ⟨0, _⟩ =>
    show win0_9.index _ 0 * 512 ≤ (i 0).val ∧ (i 0).val < win0_9.index _ 0 * 512 + 512
    rw [e0]
    show (20 * ((i 0).val / 512) + 19) / 20 * 512 ≤ (i 0).val ∧ (i 0).val < (20 * ((i 0).val / 512) + 19) / 20 * 512 + 512
    omega
  | ⟨1, _⟩ =>
    show win0_9.index _ 1 * 1 ≤ (i 1).val ∧ (i 1).val < win0_9.index _ 1 * 1 + 1
    rw [e1]
    omega

/-- THE RESULT ARRAY after the run is the network's result array of the arrays as the region finds them … -/
theorem final (c : Dev nD) : (dats m 0 c).arrAt 9 cfg0.N = res m c :=
  (dats m 0 c).arrAt_eq_of_cover 9 (res m c) (flushed_eq m c) (covered)

/-- … which are the argument arrays as launched: no host operation before the kernel writes one. -/
theorem res_eq (c : Dev nD) :
    res m c = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold res white black stm ftw l1w l2w
  rw [V_main_arg0, V_main_arg1, V_main_arg2, V_main_arg3, V_main_arg5, V_main_arg7]

/-- THE KERNEL'S RUN, READ: every weakly fair execution ends with the result array at the network's result array of the
    arguments, and the arguments unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (res_eq m c)), (h c).2⟩) (Value.run_blocks m ρ)

end Cert.KernelIdeal.Result
end
-- ==== Proof.RefValue.lean ====
/-
  The reference program, stage by stage, is the network of Spec.lean.

  Its text follows the formula literally: two products with the transposed feature weights plus the broadcast bias (the
  feature-transform rows), the two concatenations weighted by the broadcast columns `s` and `1 − s`, a clamp (a maximum with
  a broadcast 0, then a minimum with a broadcast 1), a product with the transposed `l1_w` plus the broadcast bias, the same
  clamp, and a product with the transposed `l2_w` plus the broadcast bias.  Over the extended reals every product is the sum
  over the contracted axis, a transposition swaps the two coordinates, and a broadcast repeats an entry, so each stage read at
  an entry is the corresponding piece of `Cert.Nnue.rowOut`.
-/
import proofs.«179666_j9148280341053_2_alg».proof.Proof.Gen.ReferenceIdeal.Read
import proofs.«179666_j9148280341053_2_alg».proof.Proof.Spec

noncomputable section

open scoped BigOperators
open Idealize.ShloMosaic Idealize.ShloMosaic.ValueIdx

namespace Cert.ReferenceIdeal.RefValue

open Cert.ReferenceIdeal Cert.ReferenceIdeal.Read Cert.Nnue

/-- A feature-transform row of the white features: entry (R, j) is the full sum over the features plus the bias. -/
theorem white_row (x0 : (⟨S4096x40960, .f32⟩ : BufTy).Contents (Elt Ideal)) (x3 : (⟨S256x40960, .f32⟩ : BufTy).Contents (Elt Ideal)) (x4 : (⟨S256, .f32⟩ : BufTy).Contents (Elt Ideal)) (R : Fin 4096) (j : Fin 256) :
    val_main_v4 (F := Ideal) x0 x3 x4 (ix2 R j) = (∑ k : Fin 40960, x0 (ix2 R k) * x3 (ix2 j k)) + x4 (ix1 j) := by
  rw [val_main_v4_apply, val_main_v1_apply, val_main_v3_apply, val_main_v2_apply]
  show _ + _ = _
  refine congrArg₂ (· + ·) (Finset.sum_congr rfl fun k _ => ?_) (congrArg x4 (funext fun a => Fin.ext (by match a with | ⟨0, _⟩ => rfl)))
  rw [val_main_v0_apply]
  exact congrArg₂ (· * ·) (congrArg x0 (funext fun a => Fin.ext (by match a with | ⟨0, _⟩ => rfl | ⟨1, _⟩ => rfl))) (congrArg x3 (funext fun a => Fin.ext (by match a with | ⟨0, _⟩ => rfl | ⟨1, _⟩ => rfl)))

/-- The same for the black features. -/
theorem black_row (x1 : (⟨S4096x40960, .f32⟩ : BufTy).Contents (Elt Ideal)) (x3 : (⟨S256x40960, .f32⟩ : BufTy).Contents (Elt Ideal)) (x4 : (⟨S256, .f32⟩ : BufTy).Contents (Elt Ideal)) (R : Fin 4096) (j : Fin 256) :
    val_main_v9 (F := Ideal) x1 x3 x4 (ix2 R j) = (∑ k : Fin 40960, x1 (ix2 R k) * x3 (ix2 j k)) + x4 (ix1 j) := by
  rw [val_main_v9_apply, val_main_v6_apply, val_main_v8_apply, val_main_v7_apply]
  show _ + _ = _
  refine congrArg₂ (· + ·) (Finset.sum_congr rfl fun k _ => ?_) (congrArg x4 (funext fun a => Fin.ext (by match a with | ⟨0, _⟩ => rfl)))
  rw [val_main_v5_apply]
  exact congrArg₂ (· * ·) (congrArg x1 (funext fun a => Fin.ext (by match a with | ⟨0, _⟩ => rfl | ⟨1, _⟩ => rfl))) (congrArg x3 (funext fun a => Fin.ext (by match a with | ⟨0, _⟩ => rfl | ⟨1, _⟩ => rfl)))

/-- Entry `c` of two 256-wide arrays laid side by side along the columns. -/
theorem concat_apply (a b : FVec Ideal S4096x256 .f32) (h : Shape.Concatenates [S4096x256, S4096x256] S4096x512 1)
    (R : Fin 4096) (c : Fin 512) :
    concatenate S4096x512 1 [⟨S4096x256, a⟩, ⟨S4096x256, b⟩] h (ix2 R c) = join (fun j => a (ix2 R j)) (fun j => b (ix2 R j)) c := by
  unfold join
  by_cases hc : c.val < 256
  · rw [dif_pos hc]
    exact concatenate_pair_apply_left (1 : Fin 2) a b h (ix2 R c) rfl (ix2 R ⟨c.val, hc⟩) (fun d => by fin_cases d <;> rfl)
  · rw [dif_neg hc]
    have hc' : c.val - 256 < 256 := by have := c.isLt; omega
    refine concatenate_pair_apply_right (1 : Fin 2) a b h (ix2 R c) rfl rfl (ix2 R ⟨c.val - 256, hc'⟩) (fun d hd => ?_) ?_
    · fin_cases d
      · rfl
      · exact absurd rfl hd
    · show (c.val - 256) + 256 = c.val
      omega

/-- The clamped perspective mix at (R, c). -/
theorem mixed_apply (x0 : (⟨S4096x40960, .f32⟩ : BufTy).Contents (Elt Ideal)) (x1 : (⟨S4096x40960, .f32⟩ : BufTy).Contents (Elt Ideal)) (x2 : (⟨S4096x1, .f32⟩ : BufTy).Contents (Elt Ideal)) (x3 : (⟨S256x40960, .f32⟩ : BufTy).Contents (Elt Ideal)) (x4 : (⟨S256, .f32⟩ : BufTy).Contents (Elt Ideal)) (R : Fin 4096) (c : Fin 512) :
    val_main_v19 (F := Ideal) x0 x1 x2 x3 x4 (ix2 R c)
      = mixed (fun j => val_main_v4 (F := Ideal) x0 x3 x4 (ix2 R j)) (fun j => val_main_v9 (F := Ideal) x1 x3 x4 (ix2 R j))
          (x2 (ix2 R (0 : Fin 1))) c := by
  rw [val_main_v19_apply, val_main_call0_v4_apply, val_main_call0_v3_apply, val_main_cst_1_apply, val_main_call0_v2_apply,
    val_main_call0_v1_apply, val_main_call0_v0_apply, val_main_cst_0_apply, val_main_v18_apply, val_main_v12_apply,
    val_main_v17_apply, val_main_v11_apply, val_main_v16_apply, val_main_v14_apply, val_main_v13_apply, val_main_cst_apply]
  unfold mixed clip01
  refine congrArg (min oneW) (congrArg (max zeroW) (congrArg₂ (· + ·) (congrArg₂ (· * ·) (congrArg x2 (funext fun a => Fin.ext (by match a with | ⟨0, _⟩ => rfl | ⟨1, _⟩ => rfl))) ?_)
    (congrArg₂ (· * ·) (congrArg (oneW - x2 ·) (funext fun a => Fin.ext (by match a with | ⟨0, _⟩ => rfl | ⟨1, _⟩ => rfl))) ?_)))
  · unfold val_main_v10
    exact concat_apply _ _ _ R c
  · unfold val_main_v15
    exact concat_apply _ _ _ R c

/-- The clamped hidden layer at (R, n). -/
theorem hidden_apply (x0 : (⟨S4096x40960, .f32⟩ : BufTy).Contents (Elt Ideal)) (x1 : (⟨S4096x40960, .f32⟩ : BufTy).Contents (Elt Ideal)) (x2 : (⟨S4096x1, .f32⟩ : BufTy).Contents (Elt Ideal)) (x3 : (⟨S256x40960, .f32⟩ : BufTy).Contents (Elt Ideal)) (x4 : (⟨S256, .f32⟩ : BufTy).Contents (Elt Ideal)) (x5 : (⟨S32x512, .f32⟩ : BufTy).Contents (Elt Ideal)) (x6 : (⟨S32, .f32⟩ : BufTy).Contents (Elt Ideal)) (R : Fin 4096) (n : Fin 32) :
    val_main_v25 (F := Ideal) x0 x1 x2 x3 x4 x5 x6 (ix2 R n)
      = hiddenAt (fun c => val_main_v19 (F := Ideal) x0 x1 x2 x3 x4 (ix2 R c)) (fun n c => x5 (ix2 n c)) (fun n => x6 (ix1 n)) n := by
  rw [val_main_v25_apply, val_main_call1_v4_apply, val_main_call1_v3_apply, val_main_cst_3_apply, val_main_call1_v2_apply,
    val_main_call1_v1_apply, val_main_call1_v0_apply, val_main_cst_2_apply, val_main_v24_apply, val_main_v21_apply,
    val_main_v23_apply, val_main_v22_apply]
  unfold hiddenAt clip01
  refine congrArg (min oneW) (congrArg (max zeroW) (congrArg₂ (· + ·) (Finset.sum_congr rfl fun c _ => ?_) (congrArg x6 (funext fun a => Fin.ext (by match a with | ⟨0, _⟩ => rfl)))))
  rw [val_main_v20_apply]
  exact congrArg₂ (· * ·) (congrArg (val_main_v19 (F := Ideal) x0 x1 x2 x3 x4) (funext fun a => Fin.ext (by match a with | ⟨0, _⟩ => rfl | ⟨1, _⟩ => rfl))) (congrArg x5 (funext fun a => Fin.ext (by match a with | ⟨0, _⟩ => rfl | ⟨1, _⟩ => rfl)))

/-- THE REFERENCE IS THE NETWORK: its result, as a function of the nine arguments, is `Cert.Nnue.result` of them. -/
theorem ref_eq (x0 : (⟨S4096x40960, .f32⟩ : BufTy).Contents (Elt Ideal)) (x1 : (⟨S4096x40960, .f32⟩ : BufTy).Contents (Elt Ideal)) (x2 : (⟨S4096x1, .f32⟩ : BufTy).Contents (Elt Ideal)) (x3 : (⟨S256x40960, .f32⟩ : BufTy).Contents (Elt Ideal)) (x4 : (⟨S256, .f32⟩ : BufTy).Contents (Elt Ideal)) (x5 : (⟨S32x512, .f32⟩ : BufTy).Contents (Elt Ideal)) (x6 : (⟨S32, .f32⟩ : BufTy).Contents (Elt Ideal)) (x7 : (⟨S1x32, .f32⟩ : BufTy).Contents (Elt Ideal)) (x8 : (⟨S1, .f32⟩ : BufTy).Contents (Elt Ideal)) :
    val_main_v30 (F := Ideal) x0 x1 x2 x3 x4 x5 x6 x7 x8 = result x0 x1 x2 x3 x4 x5 x6 x7 x8 := by
  funext i
  obtain ⟨R, u, rfl⟩ : ∃ (R : Fin 4096) (u : Fin 1), i = ix2 R u := ⟨i 0, i 1, eq_ix2 i⟩
  obtain rfl : u = 0 := Subsingleton.elim _ _
  rw [val_main_v30_apply, val_main_v27_apply, val_main_v29_apply, val_main_v28_apply]
  show _ + _ = network x0 x1 x2 x3 x4 x5 x6 x7 x8 R
  unfold network rowOut
  refine congrArg₂ (· + ·) (Finset.sum_congr rfl fun n _ => ?_) (congrArg x8 (funext fun a => Fin.ext (by match a with | ⟨0, _⟩ => rfl)))
  rw [val_main_v26_apply]
  refine congrArg₂ (· * ·) ?_ (congrArg x7 (funext fun a => Fin.ext (by match a with | ⟨0, _⟩ => rfl | ⟨1, _⟩ => rfl)))
  refine (congrArg (val_main_v25 (F := Ideal) x0 x1 x2 x3 x4 x5 x6) (show lidx_main_v27 (ix2 R (0 : Fin 1)) n = ix2 R n from (funext fun a => Fin.ext (by match a with | ⟨0, _⟩ => rfl | ⟨1, _⟩ => rfl)))).trans ?_
  rw [hidden_apply]
  refine congrArg (fun x => hiddenAt x (fun n c => x5 (ix2 n c)) (fun n => x6 (ix1 n)) n) (funext fun c => ?_)
  rw [mixed_apply]
  exact congrArg₂ (fun w b => mixed w b (x2 (ix2 R (0 : Fin 1))) c) (funext fun j => white_row x0 x3 x4 R j)
    (funext fun j => black_row x1 x3 x4 R j)

end Cert.ReferenceIdeal.RefValue

end
-- ==== Proof.lean ====
/-
  An NNUE-style evaluation network: a tiled kernel against its array-level reference, over the extended reals.

  Both programs compute, for each of 4096 positions, two feature-transform rows `x · ft_wᵀ + ft_b` (white and black features,
  40960 of them), the mix `s · (w ‖ b) + (1 − s) · (b ‖ w)` clamped to [0, 1], a dense layer 512 → 32 clamped to [0, 1] and a
  dense layer 32 → 1 (Spec.lean).  The reference takes each product at once; the kernel walks an 8 × 20 grid of batch tiles
  and feature tiles, accumulating the two long products tile by tile in two buffers it keeps across grid points, rounds the
  matrix operands to a shorter float format on the way into the products (the identity on the extended reals), and writes the
  last layer as a broadcast product summed along each row.  Regrouping a finite sum on the extended reals is always allowed,
  so no finiteness of the inputs is used: the two results are the same function of the arguments.

  The frames of the two kernel programs and the kernel's run are the generated ones; the reference's frame is its generated run
  with the result dropped.  The ideal pass rewrote nothing, so `preserves` has nothing to state.
-/
import proofs.«179666_j9148280341053_2_alg».proof.Defs
import proofs.«179666_j9148280341053_2_alg».proof.Proof.Gen.Kernel
import proofs.«179666_j9148280341053_2_alg».proof.Proof.Gen.Kernel.Skeleton
import proofs.«179666_j9148280341053_2_alg».proof.Proof.Gen.Kernel.Launch
import proofs.«179666_j9148280341053_2_alg».proof.Proof.Gen.Kernel.Points
import proofs.«179666_j9148280341053_2_alg».proof.Proof.Gen.Kernel.Frame
import proofs.«179666_j9148280341053_2_alg».proof.Proof.Gen.KernelIdeal
import proofs.«179666_j9148280341053_2_alg».proof.Proof.Gen.KernelIdeal.Skeleton
import proofs.«179666_j9148280341053_2_alg».proof.Proof.Gen.KernelIdeal.Launch
import proofs.«179666_j9148280341053_2_alg».proof.Proof.Gen.KernelIdeal.Points
import proofs.«179666_j9148280341053_2_alg».proof.Proof.Gen.KernelIdeal.Frame
import proofs.«179666_j9148280341053_2_alg».proof.Proof.Gen.ReferenceIdeal
import proofs.«179666_j9148280341053_2_alg».proof.Proof.Gen.Pre_finite_inputs
import proofs.«179666_j9148280341053_2_alg».proof.Proof.Gen.KernelIdeal.Value
import proofs.«179666_j9148280341053_2_alg».proof.Proof.Gen.ReferenceIdeal.Run
import proofs.«179666_j9148280341053_2_alg».proof.Proof.Gen.ReferenceIdeal.Read
import proofs.«179666_j9148280341053_2_alg».proof.Proof.KernelValue
import proofs.«179666_j9148280341053_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network's result array of the arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
